-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x100 : Shape := ⟨2, ![256, 100]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x100 : S_.BroadcastsInDim S256x100 (![] : Fin 0 → Fin S256x100.rank)
  reducesTo_S256x100_S_d0_1 : S256x100.ReducesTo [0, 1] S_

variable [Facts]

def fn {F : FTy → Type} [FloatOps F] (main_arg0 : FVec F S8x2048x256 .f32) (main_arg1 : FVec F S8x2048x256 .f32) (main_arg2 : FVec F S256x100 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S256x100 .f32 := Host.absf main_arg2
  let main_cst_2 : FVec F S_ .f32 := constant S_ .f32 0x7F800000#32
  let main_v10 : FVec F S256x100 .f32 := broadcastInDim S256x100 ![] bcast_S_S256x100 main_cst_2
  let main_v11 : IVec S256x100 1 := cmpf .olt main_v9 main_v10
  let main_c_3 : IVec S_ 1 := constantI S_ 1 1#1
  let main_v12 : IVec S_ 1 := (fun x v => Host.reduce IntOp.andi x v reducesTo_S256x100_S_d0_1 h_S_) main_v11 main_c_3
  let main_v13 : IVec S_ 1 := andi main_v8 main_v12
  main_v13
-- ==== Kernel.lean ====
abbrev S8x2048x256 : Shape := ⟨3, ![8, 2048, 256]⟩
abbrev S256x100 : Shape := ⟨2, ![256, 100]⟩
abbrev S_ : Shape := ⟨0, ![]⟩
abbrev S256x128 : Shape := ⟨2, ![256, 128]⟩
abbrev S8x2048x128 : Shape := ⟨3, ![8, 2048, 128]⟩
abbrev S1x2048x256 : Shape := ⟨3, ![1, 2048, 256]⟩
abbrev S1x2048x128 : Shape := ⟨3, ![1, 2048, 128]⟩
abbrev S2048x256 : Shape := ⟨2, ![2048, 256]⟩
abbrev S2048x128 : Shape := ⟨2, ![2048, 128]⟩
abbrev S8x2048x2048 : Shape := ⟨3, ![8, 2048, 2048]⟩
abbrev S1x1024x128 : Shape := ⟨3, ![1, 1024, 128]⟩
abbrev S1x1024x1024 : Shape := ⟨3, ![1, 1024, 1024]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S256x100, .f32⟩
  | .hbm, ⟨3, _⟩ => ⟨S_, .i32⟩
  | .hbm, ⟨4, _⟩ => ⟨S_, .f32⟩
  | .hbm, ⟨5, _⟩ => ⟨S256x128, .f32⟩
  | .hbm, ⟨6, _⟩ => ⟨S8x2048x128, .f32⟩
  | .hbm, ⟨7, _⟩ => ⟨S8x2048x128, .f32⟩
  | .hbm, ⟨8, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S256x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x256, .f32⟩
  | .local _ .vmem, ⟨6, _⟩ => ⟨S1x2048x256, .f32⟩
  | .local _ .vmem, ⟨7, _⟩ => ⟨S256x128, .f32⟩
  | .local _ .vmem, ⟨8, _⟩ => ⟨S1x2048x128, .f32⟩
  | .local _ .vmem, ⟨9, _⟩ => ⟨S1x2048x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x1024, .f32⟩
  | .local _ .vmem, ⟨15, _⟩ => ⟨S1x1024x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![8, 2, 2], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

class Facts₀ : Prop where
  pads_S256x100_S256x128_000_0280 : S256x100.Pads (![0, 0] : Fin 2 → Nat) ![0, 28] ![0, 0] S256x128
  h_S_ : 0 < S_.numel
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S2048x256_S256x128_S2048x128_1_0_0_1_n_n_wf : DotDims.WF S2048x256 S256x128 S2048x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x2048x256.size a
  hwx1_0 : ∀ i : grid1.Coords, EltTy.bits .f32 = 32 ∨ (Rect.block (s := S8x2048x256) S1x2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S8x2048x128.size a
  hwx1_2 : ∀ i : grid1.Coords, EltTy.bits .f32 = 32 ∨ (Rect.block (s := S8x2048x128) S1x2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x128.size a ≤ S8x2048x128.size a
  hwx2_0 : ∀ i : grid2.Coords, EltTy.bits .f32 = 32 ∨ (Rect.block (s := S8x2048x128) S1x1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x128.size a ≤ S8x2048x128.size a
  hwx2_1 : ∀ i : grid2.Coords, EltTy.bits .f32 = 32 ∨ (Rect.block (s := S8x2048x128) S1x1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S8x2048x2048.size a
  hwx2_2 : ∀ i : grid2.Coords, EltTy.bits .f32 = 32 ∨ (Rect.block (s := S8x2048x2048) S1x1024x1024.size (cc2_transform_2 i) (hinb2_2 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x2048x256 : Shape := ⟨3, ![8, 2048, 256]⟩
abbrev S256x100 : Shape := ⟨2, ![256, 100]⟩
abbrev S8x2048x100 : Shape := ⟨3, ![8, 2048, 100]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S256x100, .f32⟩
  | .hbm, ⟨3, _⟩ => ⟨S8x2048x100, .f32⟩
  | .hbm, ⟨4, _⟩ => ⟨S8x2048x100, .f32⟩
  | .hbm, ⟨5, _⟩ => ⟨S8x2048x100, .f32⟩
  | .hbm, ⟨6, _⟩ => ⟨S_, .f32⟩
  | .hbm, ⟨7, _⟩ => ⟨S8x2048, .f32⟩
  | .hbm, ⟨8, _⟩ => ⟨S8x2048x100, .f32⟩
  | .hbm, ⟨9, _⟩ => ⟨S_, .f32⟩
  | .hbm, ⟨10, _⟩ => ⟨S8x2048, .f32⟩
  | .hbm, ⟨11, _⟩ => ⟨S8x2048x2048, .f32⟩
  | .hbm, ⟨12, _⟩ => ⟨S8x2048x1, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S8x2048x100_S8x2048_d2 : S8x2048x100.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  dot_S8x2048x256_S256x100_S8x2048x100_2_0_01_1_n_n_wf : DotDims.WF S8x2048x256 S256x100 S8x2048x100 [2] [0] [0, 1] [1] [] []
  dot_S8x2048x100_S8x2048x100_S8x2048x2048_2_2_1_1_0_0_wf : DotDims.WF S8x2048x100 S8x2048x100 S8x2048x2048 [2] [2] [1] [1] [0] [0]

variable [Facts₀]

def dot_S8x2048x256_S256x100_S8x2048x100_2_0_01_1_n_n : DotDims S8x2048x256 S256x100 S8x2048x100 where
  lhsContracting := [2]
  rhsContracting := [0]
  lhsNonContracting := [0, 1]
  rhsNonContracting := [1]
  lhsBatch := []
  rhsBatch := []
  wf := dot_S8x2048x256_S256x100_S8x2048x100_2_0_01_1_n_n_wf
def dot_S8x2048x100_S8x2048x100_S8x2048x2048_2_2_1_1_0_0 : DotDims S8x2048x100 S8x2048x100 S8x2048x2048 where
  lhsContracting := [2]
  rhsContracting := [2]
  lhsNonContracting := [1]
  rhsNonContracting := [1]
  lhsBatch := [0]
  rhsBatch := [0]
  wf := dot_S8x2048x100_S8x2048x100_S8x2048x2048_2_2_1_1_0_0_wf

class Facts : Prop extends Facts₀ where

variable [Facts]
-- ==== Proof.KernelRun.lean ====
/-
  The kernel program's run with its result named. The program is a host stretch (the weights padded with 28
  zero columns), two projection launches and the pairwise launch. Every weakly fair execution terminates without a
  fault; the contents of every unscoped buffer at the end are the fold of the five segments over the launch memory.
  Here that final state is read at the result buffer as well as at the three arguments: the result ends holding what
  the last launch's write-backs leave in its output array.
-/
import proofs.«179172_j51118700757139_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents there and the three arguments as launched. -/
theorem run_result : θ_run defs (onTc (τ := τ) (main (F := F))) ⟨m, fun _ => 0, ρ⟩ (fun r => ∀ c : Dev nD,
      r.2.mem ((c.tc : Thread nD τ).loc main_v3) = W5 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v3 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Hand

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.Payloads.lean ====
/-
  The arithmetic of the three kernel bodies, read at one index of the stored block, on the extended reals.

  A projection body stores, at row r and column k of its block, the sum over d of (its data block at row r,
  column d) times (the padded weight matrix at row d, column k): a matrix product into a zero accumulator; the
  two roundings to sixteen bits on the way in are the identity on the extended reals.

  The pairwise body stores, at row r and column s, the larger of zero and
      (sum over k of y(r,k)^2  +  sum over k of x(s,k)^2)  -  two * (sum over k of y(r,k) * x(s,k)),
  where y and x are its two loaded blocks: two lane sums kept as a column, one of them transposed into a row,
  both spread over the square, and a matrix product contracting the second axis of both operands.
-/
import proofs.«179172_j51118700757139_2_alg».proof.Proof.Gen.KernelIdeal.Skeleton
import proofs.«179172_j51118700757139_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open Idealize.ShloMosaic.ColumnLayout

/-! ## The operand indices of the two matrix products -/

theorem proj_lhs_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide),
    dif_pos (show (0 : Fin S2048x256.rank) ∈ dot_S2048x256_S256x128_S2048x128_1_0_0_1_n_n.lhsNonContracting by decide)]
  rfl
theorem proj_lhs_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem proj_rhs_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem proj_rhs_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide),
    dif_pos (show (1 : Fin S256x128.rank) ∈ dot_S2048x256_S256x128_S2048x128_1_0_0_1_n_n.rhsNonContracting by decide)]
  rfl

theorem cross_lhs_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem cross_lhs_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem cross_rhs_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem cross_rhs_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-! ## A projection body at an index -/

/-- The matrix product of a [2048,256] block with the [256,128] weights into zero, at (r, k): the sum over d. -/
theorem proj_matmul_apply (a : FVec Ideal S2048x256 .bf16) (w : FVec Ideal S256x128 .bf16) (r : Fin 2048) (k : Fin 128) :
    matmul dot_S2048x256_S256x128_S2048x128_1_0_0_1_n_n none a w (constant S2048x128 .f32 0x00000000#32) (ix2 r k)
      = ∑ d : Fin 256, a (ix2 r d) * w (ix2 d k) := by
  refine (Ideal.matmul_constant_zero_apply dot_S2048x256_S256x128_S2048x128_1_0_0_1_n_n none a w (ix2 r k)).trans ?_
  rw [← Equiv.sum_comp (contrEquiv1 dot_S2048x256_S256x128_S2048x128_1_0_0_1_n_n 256 rfl rfl).symm]
  refine Finset.sum_congr rfl fun d _ => ?_
  have hk := contrEquiv1_symm_val dot_S2048x256_S256x128_S2048x128_1_0_0_1_n_n 256 rfl rfl d
  have el : dot_S2048x256_S256x128_S2048x128_1_0_0_1_n_n.lhsIdx (ix2 r k) ((contrEquiv1 dot_S2048x256_S256x128_S2048x128_1_0_0_1_n_n 256 rfl rfl).symm d) = ix2 r d :=
    funext fun ax => Fin.ext (by
      match ax with
      | ⟨0, _⟩ => exact proj_lhs_0 _ _
      | ⟨1, _⟩ => exact (proj_lhs_1 _ _).trans hk)
  have er : dot_S2048x256_S256x128_S2048x128_1_0_0_1_n_n.rhsIdx (ix2 r k) ((contrEquiv1 dot_S2048x256_S256x128_S2048x128_1_0_0_1_n_n 256 rfl rfl).symm d) = ix2 d k :=
    funext fun ax => Fin.ext (by
      match ax with
      | ⟨0, _⟩ => exact (proj_rhs_0 _ _).trans hk
      | ⟨1, _⟩ => exact proj_rhs_1 _ _)
  rw [el, er]

/-- What a projection body stores at (u, r, k) of its block, from its two loaded blocks. -/
theorem proj_pay_apply (x0 : Vec Ideal S1x2048x256 .f32) (x1 : Vec Ideal S256x128 .f32) (u : Fin 1) (r : Fin 2048) (k : Fin 128) :
    k0_pay1 (F := Ideal) x0 x1 (ix3 u r k) = ∑ d : Fin 256, x0 (ix3 (0 : Fin 1) r d) * x1 (ix2 d k) := by
  unfold k0_pay1
  refine (shapeCast_ab_1ab_apply _ _ u r k).trans ?_
  refine (proj_matmul_apply _ _ r k).trans ?_
  refine Finset.sum_congr rfl fun d _ => ?_
  refine congrArg₂ (· * ·) ?_ ?_
  · exact shapeCast_1ab_ab_apply x0 _ r d
  · exact congrFun (shapeCast_self x1 _) (ix2 d k)

/-- The second projection's body is the same text. -/
theorem proj_pay_apply' (x0 : Vec Ideal S1x2048x256 .f32) (x1 : Vec Ideal S256x128 .f32) (u : Fin 1) (r : Fin 2048) (k : Fin 128) :
    k1_pay1 (F := Ideal) x0 x1 (ix3 u r k) = ∑ d : Fin 256, x0 (ix3 (0 : Fin 1) r d) * x1 (ix2 d k) :=
  proj_pay_apply x0 x1 u r k

end Cert.KernelIdeal.Hand

end
-- ==== Proof.ProjSpec.lean ====
/-
  What a projection launch leaves in its output array, as one function of the two arrays it reads: at (b, r, k) the
  sum over d of data(b, r, d) * weights(d, k) — every batch's [2048,256] slab times the one [256,128] matrix.
  And the step from one grid point's block to that function: a point's data block is slab b of the data, its weight
  block is the whole matrix, and what its body stores at (0, r, k) is the function at (b, r, k).
-/
import proofs.«179172_j51118700757139_2_alg».proof.Proof.Payloads

noncomputable section

namespace Cert.KernelIdeal.Hand

open Cert.KernelIdeal Cert.KernelIdeal.Gen Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The projection at batch b, row r, column k. -/
def projAt (Z : FVec Ideal S8x2048x256 .f32) (Ap : FVec Ideal S256x128 .f32) (b : Fin 8) (r : Fin 2048) (k : Fin 128) : EReal :=
  ∑ d : Fin 256, Z (ix3 b r d) * Ap (ix2 d k)

/-- The projected array. -/
def projG (Z : FVec Ideal S8x2048x256 .f32) (Ap : FVec Ideal S256x128 .f32) : FVec Ideal S8x2048x128 .f32 :=
  fun i => projAt Z Ap (i 0) (i 1) (i 2)

theorem projG_ix3 (Z : FVec Ideal S8x2048x256 .f32) (Ap : FVec Ideal S256x128 .f32) (b : Fin 8) (r : Fin 2048) (k : Fin 128) :
    projG Z Ap (ix3 b r k) = projAt Z Ap b r k := rfl

/-- One point's stored block is the projected array's block: if the data block is slab b of Z and the weight block
    is Ap, the body's value at j is the projection at the array index i that j sits at. -/
theorem proj_block (x0 : Vec Ideal S1x2048x256 .f32) (x1 : Vec Ideal S256x128 .f32)
    (Z : FVec Ideal S8x2048x256 .f32) (Ap : FVec Ideal S256x128 .f32) (b : Fin 8)
    (h0 : ∀ (r : Fin 2048) (d : Fin 256), x0 (ix3 (0 : Fin 1) r d) = Z (ix3 b r d))
    (h1 : ∀ (d : Fin 256) (k : Fin 128), x1 (ix2 d k) = Ap (ix2 d k))
    (j : S1x2048x128.Idx) (i : S8x2048x128.Idx)
    (hi0 : (i 0).val = b.val) (hi1 : (i 1).val = (j 1).val) (hi2 : (i 2).val = (j 2).val) :
    k0_pay1 (F := Ideal) x0 x1 j = projG Z Ap i := by
  obtain ⟨u, r, k, rfl⟩ : ∃ (u : Fin 1) (r : Fin 2048) (k : Fin 128), j = ix3 u r k := ⟨j 0, j 1, j 2, eq_ix3 j⟩
  obtain ⟨b', r', k', rfl⟩ : ∃ (b' : Fin 8) (r' : Fin 2048) (k' : Fin 128), i = ix3 b' r' k' := ⟨i 0, i 1, i 2, eq_ix3 i⟩
  obtain rfl : b' = b := Fin.ext hi0
  obtain rfl : r' = r := Fin.ext hi1
  obtain rfl : k' = k := Fin.ext hi2
  rw [proj_pay_apply, projG_ix3]
  unfold projAt
  exact Finset.sum_congr rfl fun d _ => by rw [h0, h1]

end Cert.KernelIdeal.Hand

end
-- ==== Proof.ProjValue0.lean ====
/-
  Projection launch 0 of the program, at any contents of the buffers when it is entered: its output array ends
  holding the projection of the data array by the padded weight matrix. Its grid has one point per batch; point t
  reads slab t of the data and the whole matrix and writes back slab t of the output, so the eight blocks tile the
  output array and each is the projection's block.
-/
import proofs.«179172_j51118700757139_2_alg».proof.Proof.Gen.KernelIdeal.Frame
import proofs.«179172_j51118700757139_2_alg».proof.Proof.ProjSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: the data and output blocks sit at the point's own number on the batch
    axis and at zero elsewhere; the weight block is always block (0, 0). -/
theorem proj_idx0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of the projection of the arrays the launch finds. -/
theorem proj_flushed0 (c : Dev nD) (t : Fin cfg0.N) :
    (dat0 V c).flushed 2 t
      = ((cfg0.win 2).blk t).view.read (Elt Ideal) (projG (V c (Pipeline.arrRef spec0 0)) (V c (Pipeline.arrRef spec0 1))) := by
  show (cfg0.win 2).cut (grid0.coords t) ((dat0 V c).after 2 t) = _
  rw [after0_2]
  unfold out0_2
  rw [View.canon_unit_zero hz3]
  simp only [View.ld_unit_zero (S := S1x2048x256) hz3, View.ld_unit_zero (S := S256x128) hz2]
  obtain ⟨e00, e01, e02, e10, e11, e20, e21, e22⟩ := proj_idx0 t
  have tlt : t.val < 8 := Nat.lt_of_lt_of_eq t.isLt N_0
  funext j
  have hj0 : (j 0).val < 1 := (j 0).isLt
  refine proj_block (iblk0 V c 0 t) (iblk0 V c 1 t) (V c (Pipeline.arrRef spec0 0)) (V c (Pipeline.arrRef spec0 1)) ⟨t.val, tlt⟩ ?_ ?_ j _ ?_ ?_ ?_
  · intro r d
    show V c (Pipeline.arrRef spec0 0) (((cfg0.win 0).blk t).view.emb (ix3 (0 : Fin 1) r d)) = _
    refine congrArg _ (funext fun a => Fin.ext ?_)
    match a with
    | ⟨0, _⟩ => show win0_0.index t (0 : Fin 3) * 1 + 1 * 0 = t.val; omega
    | ⟨1, _⟩ => show win0_0.index t (1 : Fin 3) * 2048 + 1 * r.val = r.val; omega
    | ⟨2, _⟩ => show win0_0.index t (2 : Fin 3) * 256 + 1 * d.val = d.val; omega
  · intro d k
    show V c (Pipeline.arrRef spec0 1) (((cfg0.win 1).blk t).view.emb (ix2 d k)) = _
    refine congrArg _ (funext fun a => Fin.ext ?_)
    match a with
    | ⟨0, _⟩ => show win0_1.index t (0 : Fin 2) * 256 + 1 * d.val = d.val; omega
    | ⟨1, _⟩ => show win0_1.index t (1 : Fin 2) * 128 + 1 * k.val = k.val; omega
  · show win0_2.index t (0 : Fin 3) * 1 + 1 * (j 0).val = t.val; omega
  · show win0_2.index t (1 : Fin 3) * 2048 + 1 * (j 1).val = (j 1).val; omega
  · show win0_2.index t (2 : Fin 3) * 128 + 1 * (j 2).val = (j 2).val; omega

/-- An index of the output array is in point t's block iff each coordinate is in the block's range on its axis. -/
theorem proj_mem_blk0 (t : Fin cfg0.N) (i : S8x2048x128.Idx) :
    i ∈ ((cfg0.win 2).blk t).view.set ↔ ∀ a : Fin 3, win0_2.index t a * S1x2048x128.size a ≤ (i a).val ∧ (i a).val < win0_2.index t a * S1x2048x128.size a + S1x2048x128.size a := by
  show i ∈ ((View.whole (Pipeline.arrRef spec0 2)).slice (win0_2.rect t)).set ↔ _
  rw [View.set_slice_whole, Rect.mem_set_unit]
  exact Iff.rfl

/-- Every index of the output array is in the block of the point numbered by its batch coordinate. -/
theorem proj_cover0 (i : S8x2048x128.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  let t : Fin cfg0.N := ⟨(i 0).val, by rw [show cfg0.N = 8 from N_0]; exact hi0⟩
  obtain ⟨e00, e01, e02, e10, e11, e20, e21, e22⟩ := proj_idx0 t
  have tv : t.val = (i 0).val := rfl
  refine ⟨t, flush0_2 t, ?_⟩
  rw [proj_mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- The launch's output array after its last point: the projection of the data by the weights as the launch found them. -/
theorem proj_final0 (c : Dev nD) :
    (dat0 V c).arrAt 2 cfg0.N = projG (V c (Pipeline.arrRef spec0 0)) (V c (Pipeline.arrRef spec0 1)) :=
  (dat0 V c).arrAt_eq_of_cover 2 (projG (V c (Pipeline.arrRef spec0 0)) (V c (Pipeline.arrRef spec0 1)))
    (fun t _ => proj_flushed0 V c t) (proj_cover0)

end Cert.KernelIdeal.Hand

end
-- ==== Proof.ProjValue1.lean ====
/-
  Projection launch 1 of the program, at any contents of the buffers when it is entered: its output array ends
  holding the projection of the data array by the padded weight matrix. Its grid has one point per batch; point t
  reads slab t of the data and the whole matrix and writes back slab t of the output, so the eight blocks tile the
  output array and each is the projection's block.
-/
import proofs.«179172_j51118700757139_2_alg».proof.Proof.Gen.KernelIdeal.Frame
import proofs.«179172_j51118700757139_2_alg».proof.Proof.ProjSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: the data and output blocks sit at the point's own number on the batch
    axis and at zero elsewhere; the weight block is always block (0, 0). -/
theorem proj_idx1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- What point t writes back is block t of the projection of the arrays the launch finds. -/
theorem proj_flushed1 (c : Dev nD) (t : Fin cfg1.N) :
    (dat1 V c).flushed 2 t
      = ((cfg1.win 2).blk t).view.read (Elt Ideal) (projG (V c (Pipeline.arrRef spec1 0)) (V c (Pipeline.arrRef spec1 1))) := by
  show (cfg1.win 2).cut (grid1.coords t) ((dat1 V c).after 2 t) = _
  rw [after1_2]
  unfold out1_2
  rw [View.canon_unit_zero hz3]
  simp only [View.ld_unit_zero (S := S1x2048x256) hz3, View.ld_unit_zero (S := S256x128) hz2]
  obtain ⟨e00, e01, e02, e10, e11, e20, e21, e22⟩ := proj_idx1 t
  have tlt : t.val < 8 := Nat.lt_of_lt_of_eq t.isLt N_1
  funext j
  have hj0 : (j 0).val < 1 := (j 0).isLt
  refine proj_block (iblk1 V c 0 t) (iblk1 V c 1 t) (V c (Pipeline.arrRef spec1 0)) (V c (Pipeline.arrRef spec1 1)) ⟨t.val, tlt⟩ ?_ ?_ j _ ?_ ?_ ?_
  · intro r d
    show V c (Pipeline.arrRef spec1 0) (((cfg1.win 0).blk t).view.emb (ix3 (0 : Fin 1) r d)) = _
    refine congrArg _ (funext fun a => Fin.ext ?_)
    match a with
    | ⟨0, _⟩ => show win1_0.index t (0 : Fin 3) * 1 + 1 * 0 = t.val; omega
    | ⟨1, _⟩ => show win1_0.index t (1 : Fin 3) * 2048 + 1 * r.val = r.val; omega
    | ⟨2, _⟩ => show win1_0.index t (2 : Fin 3) * 256 + 1 * d.val = d.val; omega
  · intro d k
    show V c (Pipeline.arrRef spec1 1) (((cfg1.win 1).blk t).view.emb (ix2 d k)) = _
    refine congrArg _ (funext fun a => Fin.ext ?_)
    match a with
    | ⟨0, _⟩ => show win1_1.index t (0 : Fin 2) * 256 + 1 * d.val = d.val; omega
    | ⟨1, _⟩ => show win1_1.index t (1 : Fin 2) * 128 + 1 * k.val = k.val; omega
  · show win1_2.index t (0 : Fin 3) * 1 + 1 * (j 0).val = t.val; omega
  · show win1_2.index t (1 : Fin 3) * 2048 + 1 * (j 1).val = (j 1).val; omega
  · show win1_2.index t (2 : Fin 3) * 128 + 1 * (j 2).val = (j 2).val; omega

/-- An index of the output array is in point t's block iff each coordinate is in the block's range on its axis. -/
theorem proj_mem_blk1 (t : Fin cfg1.N) (i : S8x2048x128.Idx) :
    i ∈ ((cfg1.win 2).blk t).view.set ↔ ∀ a : Fin 3, win1_2.index t a * S1x2048x128.size a ≤ (i a).val ∧ (i a).val < win1_2.index t a * S1x2048x128.size a + S1x2048x128.size a := by
  show i ∈ ((View.whole (Pipeline.arrRef spec1 2)).slice (win1_2.rect t)).set ↔ _
  rw [View.set_slice_whole, Rect.mem_set_unit]
  exact Iff.rfl

/-- Every index of the output array is in the block of the point numbered by its batch coordinate. -/
theorem proj_cover1 (i : S8x2048x128.Idx) :
    ∃ t : Fin cfg1.N, (cfg1.win 2).flush t = true ∧ i ∈ ((cfg1.win 2).blk t).view.set := by
  have hi0 : (i 0).val < 8 := (i 0).isLt
  have hi1 : (i 1).val < 2048 := (i 1).isLt
  have hi2 : (i 2).val < 128 := (i 2).isLt
  let t : Fin cfg1.N := ⟨(i 0).val, by rw [show cfg1.N = 8 from N_1]; exact hi0⟩
  obtain ⟨e00, e01, e02, e10, e11, e20, e21, e22⟩ := proj_idx1 t
  have tv : t.val = (i 0).val := rfl
  refine ⟨t, flush1_2 t, ?_⟩
  rw [proj_mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 2048 ≤ (i 1).val ∧ (i 1).val < win1_2.index t (1 : Fin 3) * 2048 + 2048; omega
  | ⟨2, _⟩ => show win1_2.index t (2 : Fin 3) * 128 ≤ (i 2).val ∧ (i 2).val < win1_2.index t (2 : Fin 3) * 128 + 128; omega

/-- The launch's output array after its last point: the projection of the data by the weights as the launch found them. -/
theorem proj_final1 (c : Dev nD) :
    (dat1 V c).arrAt 2 cfg1.N = projG (V c (Pipeline.arrRef spec1 0)) (V c (Pipeline.arrRef spec1 1)) :=
  (dat1 V c).arrAt_eq_of_cover 2 (projG (V c (Pipeline.arrRef spec1 0)) (V c (Pipeline.arrRef spec1 1)))
    (fun t _ => proj_flushed1 V c t) (proj_cover1)

end Cert.KernelIdeal.Hand

end
-- ==== Proof.PayCross.lean ====
/-
  The pairwise body at one index of its stored block, on the extended reals: at row r and column s the larger of
  zero and  (sum_k y(r,k)^2 + sum_k x(s,k)^2) - two * sum_k y(r,k) * x(s,k),  y and x the two loaded blocks.
  The row sums are lane reductions kept as a column; the second is transposed into a row; both are spread over the
  square; the cross term is a matrix product contracting the second axis of both operands into a zero accumulator.
-/
import proofs.«179172_j51118700757139_2_alg».proof.Proof.Payloads

noncomputable section

namespace Cert.KernelIdeal.Hand

open Cert.KernelIdeal Cert.KernelIdeal.Gen Idealize.ShloMosaic Idealize.ShloMosaic.ValueIdx
open Idealize.ShloMosaic.ColumnLayout

/-- A lane sum of a [1024,128] array from zero, at row r: the sum over the 128 lanes of that row. -/
theorem rowsum_apply (src : FVec Ideal S1024x128 .f32) (r : Fin 1024) :
    multiReduction .add [1] S1024 src 0x00000000#32 reduces_S1024x128_S1024 (.inl rfl) rfl (ix1 r)
      = ∑ k : Fin 128, src (ix2 r k) :=
  (Ideal.multiReduction_add_single src 0x00000000#32 reduces_S1024x128_S1024 (.inl rfl) rfl (ix1 r)).trans
    (Finset.sum_congr rfl fun k _ => congrArg src (funext fun a => Fin.ext (by
      match a with
      | ⟨0, _⟩ => rfl
      | ⟨1, _⟩ => rfl)))

/-- The product of two [1024,128] blocks contracting their second axes, into zero, at (r, s): the sum over k. -/
theorem cross_matmul_apply (a b : FVec Ideal S1024x128 .bf16) (r s : Fin 1024) :
    matmul dot_S1024x128_S1024x128_S1024x1024_1_1_0_0_n_n none a b (constant S1024x1024 .f32 0x00000000#32) (ix2 r s)
      = ∑ k : Fin 128, a (ix2 r k) * b (ix2 s k) := by
  refine (Ideal.matmul_constant_zero_apply dot_S1024x128_S1024x128_S1024x1024_1_1_0_0_n_n none a b (ix2 r s)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r s) ((contrEquiv1 dot_S1024x128_S1024x128_S1024x1024_1_1_0_0_n_n 128 rfl rfl).symm k) = ix2 r k :=
    funext fun ax => Fin.ext (by
      match ax with
      | ⟨0, _⟩ => exact cross_lhs_0 _ _
      | ⟨1, _⟩ => exact (cross_lhs_1 _ _).trans hk)
  have er : dot_S1024x128_S1024x128_S1024x1024_1_1_0_0_n_n.rhsIdx (ix2 r s) ((contrEquiv1 dot_S1024x128_S1024x128_S1024x1024_1_1_0_0_n_n 128 rfl rfl).symm k) = ix2 s k :=
    funext fun ax => Fin.ext (by
      match ax with
      | ⟨0, _⟩ => exact cross_rhs_0 _ _
      | ⟨1, _⟩ => exact (cross_rhs_1 _ _).trans hk)
  rw [el, er]

/-- What the pairwise body stores at (u, r, s) of its block, from its two loaded blocks. -/
theorem cross_pay_apply (y x : Vec Ideal S1x1024x128 .f32) (u : Fin 1) (r s : Fin 1024) :
    k2_pay1 (F := Ideal) y x (ix3 u r s)
      = max (((∑ k : Fin 128, y (ix3 (0 : Fin 1) r k) * y (ix3 (0 : Fin 1) r k))
              + ∑ k : Fin 128, x (ix3 (0 : Fin 1) s k) * x (ix3 (0 : Fin 1) s k))
            - Ideal.ofBits .f32 0x40000000#32 * ∑ k : Fin 128, y (ix3 (0 : Fin 1) r k) * x (ix3 (0 : Fin 1) s k))
          (Ideal.ofBits .f32 0x00000000#32) := by
  unfold k2_pay1
  refine (shapeCast_ab_1ab_apply _ _ u r s).trans ?_
  refine (maximumf_apply _ _ _).trans ?_
  refine congrArg₂ max ?_ rfl
  refine (subf_apply _ _ _).trans ?_
  refine congrArg₂ (· - ·) ?_ ?_
  · refine (addf_apply _ _ _).trans ?_
    refine congrArg₂ (· + ·) ?_ ?_
    · refine (broadcastTo_a1_ab_apply _ _ r s).trans ?_
      refine (shapeCast_a_a1_apply _ _ r (0 : Fin 1)).trans ?_
      refine (rowsum_apply _ r).trans ?_
      refine Finset.sum_congr rfl fun k _ => ?_
      refine (mulf_apply _ _ _).trans ?_
      exact congrArg₂ (· * ·) (shapeCast_1ab_ab_apply y _ r k) (shapeCast_1ab_ab_apply y _ r k)
    · refine (broadcastTo_1b_ab_apply _ _ r s).trans ?_
      refine (transpose_ix2_apply _ _ (0 : Fin 1) s).trans ?_
      refine (shapeCast_a_a1_apply _ _ s (0 : Fin 1)).trans ?_
      refine (rowsum_apply _ s).trans ?_
      refine Finset.sum_congr rfl fun k _ => ?_
      refine (mulf_apply _ _ _).trans ?_
      exact congrArg₂ (· * ·) (shapeCast_1ab_ab_apply x _ s k) (shapeCast_1ab_ab_apply x _ s k)
  · refine (mulf_apply _ _ _).trans ?_
    refine congrArg₂ (· * ·) rfl ?_
    refine (cross_matmul_apply _ _ r s).trans ?_
    refine Finset.sum_congr rfl fun k _ => ?_
    exact congrArg₂ (· * ·) (shapeCast_1ab_ab_apply y _ r k) (shapeCast_1ab_ab_apply x _ s k)

end Cert.KernelIdeal.Hand

end
-- ==== Proof.CrossSpec.lean ====
/-
  What the pairwise launch leaves in its output array, as one function of the two projected arrays it reads: at
  (b, n, m) the larger of zero and
      (sum_k YA(b,n,k)^2 + sum_k XA(b,m,k)^2) - two * sum_k YA(b,n,k) * XA(b,m,k).
  And the step from one grid point's block to that function: the point's first block is 1024 rows of batch b of YA,
  its second block 1024 rows of batch b of XA, and what its body stores at (0, r, s) is the function at those rows.
-/
import proofs.«179172_j51118700757139_2_alg».proof.Proof.PayCross

noncomputable section

namespace Cert.KernelIdeal.Hand

open Cert.KernelIdeal Cert.KernelIdeal.Gen Idealize.ShloMosaic Idealize.ShloMosaic.ValueIdx

/-- The pairwise value at batch b, row n of the first array and row m of the second. -/
def crossAt (YA XA : FVec Ideal S8x2048x128 .f32) (b : Fin 8) (n m : Fin 2048) : EReal :=
  max (((∑ k : Fin 128, YA (ix3 b n k) * YA (ix3 b n k)) + ∑ k : Fin 128, XA (ix3 b m k) * XA (ix3 b m k))
        - Ideal.ofBits .f32 0x40000000#32 * ∑ k : Fin 128, YA (ix3 b n k) * XA (ix3 b m k))
      (Ideal.ofBits .f32 0x00000000#32)

/-- The pairwise array. -/
def crossG (YA XA : FVec Ideal S8x2048x128 .f32) : FVec Ideal S8x2048x2048 .f32 :=
  fun i => crossAt YA XA (i 0) (i 1) (i 2)

theorem crossG_ix3 (YA XA : FVec Ideal S8x2048x128 .f32) (b : Fin 8) (n m : Fin 2048) :
    crossG YA XA (ix3 b n m) = crossAt YA XA b n m := rfl

/-- One point's stored block is the pairwise array's block. -/
theorem cross_block (y x : Vec Ideal S1x1024x128 .f32) (YA XA : FVec Ideal S8x2048x128 .f32) (b : Fin 8)
    (rowY rowX : Fin 1024 → Fin 2048)
    (hy : ∀ (r : Fin 1024) (k : Fin 128), y (ix3 (0 : Fin 1) r k) = YA (ix3 b (rowY r) k))
    (hx : ∀ (s : Fin 1024) (k : Fin 128), x (ix3 (0 : Fin 1) s k) = XA (ix3 b (rowX s) k))
    (j : S1x1024x1024.Idx) (i : S8x2048x2048.Idx)
    (hi0 : (i 0).val = b.val) (hi1 : (i 1).val = (rowY (j 1)).val) (hi2 : (i 2).val = (rowX (j 2)).val) :
    k2_pay1 (F := Ideal) y x j = crossG YA XA i := by
  obtain ⟨u, r, s, rfl⟩ : ∃ (u : Fin 1) (r s : Fin 1024), j = ix3 u r s := ⟨j 0, j 1, j 2, eq_ix3 j⟩
  obtain ⟨b', n, m, rfl⟩ : ∃ (b' : Fin 8) (n m : Fin 2048), i = ix3 b' n m := ⟨i 0, i 1, i 2, eq_ix3 i⟩
  obtain rfl : b' = b := Fin.ext hi0
  obtain rfl : n = rowY r := Fin.ext hi1
  obtain rfl : m = rowX s := Fin.ext hi2
  rw [cross_pay_apply, crossG_ix3]
  unfold crossAt
  simp only [hy, hx]

end Cert.KernelIdeal.Hand

end
-- ==== Proof.CrossValue.lean ====
/-
  The pairwise launch of the program, at any contents of the buffers when it is entered: its output array ends
  holding the pairwise function of the two projected arrays. Its grid is 8 x 2 x 2: point (b, ni, mi) reads rows
  1024 ni .. of batch b of the first array and rows 1024 mi .. of batch b of the second, and writes back block
  (b, ni, mi) of the output; the 32 blocks tile the output array and each is the function's block.
-/
import proofs.«179172_j51118700757139_2_alg».proof.Proof.Gen.KernelIdeal.Frame
import proofs.«179172_j51118700757139_2_alg».proof.Proof.ProjSpec
import proofs.«179172_j51118700757139_2_alg».proof.Proof.CrossSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: both input blocks share the output block's batch; the first follows the
    output block's row index, the second its column index; all stay in range. -/
theorem cross_idx : ∀ t : Fin cfg2.N,
    win2_0.index t (0 : Fin 3) = win2_2.index t (0 : Fin 3) ∧ win2_0.index t (1 : Fin 3) = win2_2.index t (1 : Fin 3) ∧ win2_0.index t (2 : Fin 3) = 0
    ∧ win2_1.index t (0 : Fin 3) = win2_2.index t (0 : Fin 3) ∧ win2_1.index t (1 : Fin 3) = win2_2.index t (2 : Fin 3) ∧ win2_1.index t (2 : Fin 3) = 0
    ∧ win2_2.index t (0 : Fin 3) ≤ 7 ∧ win2_2.index t (1 : Fin 3) ≤ 1 ∧ win2_2.index t (2 : Fin 3) ≤ 1 :=
  (by decide +kernel : ∀ t : Fin grid2.N, _)

/-- Every block of the output array is some point's. -/
theorem cross_onto : ∀ (q0 : Fin 8) (q1 q2 : Fin 2), ∃ t : Fin cfg2.N, win2_2.index t = ![q0.val, q1.val, q2.val] :=
  (by decide +kernel : ∀ (q0 : Fin 8) (q1 q2 : Fin 2), ∃ t : Fin grid2.N, win2_2.index t = ![q0.val, q1.val, q2.val])

/-- What point t writes back is block t of the pairwise function of the arrays the launch finds. -/
theorem cross_flushed (c : Dev nD) (t : Fin cfg2.N) :
    (dat2 V c).flushed 2 t
      = ((cfg2.win 2).blk t).view.read (Elt Ideal) (crossG (V c (Pipeline.arrRef spec2 0)) (V c (Pipeline.arrRef spec2 1))) := by
  show (cfg2.win 2).cut (grid2.coords t) ((dat2 V c).after 2 t) = _
  rw [after2_2]
  unfold out2_2
  rw [View.canon_unit_zero hz3]
  simp only [View.ld_unit_zero (S := S1x1024x128) hz3]
  obtain ⟨e00, e01, e02, e10, e11, e12, b0, b1, b2⟩ := cross_idx t
  funext j
  have hj0 : (j 0).val < 1 := (j 0).isLt
  have hj1 : (j 1).val < 1024 := (j 1).isLt
  have hj2 : (j 2).val < 1024 := (j 2).isLt
  refine cross_block (iblk2 V c 0 t) (iblk2 V c 1 t) (V c (Pipeline.arrRef spec2 0)) (V c (Pipeline.arrRef spec2 1))
    ⟨win2_2.index t (0 : Fin 3), by omega⟩
    (fun r => ⟨win2_2.index t (1 : Fin 3) * 1024 + r.val, by have := r.isLt; omega⟩)
    (fun s => ⟨win2_2.index t (2 : Fin 3) * 1024 + s.val, by have := s.isLt; omega⟩) ?_ ?_ j _ ?_ ?_ ?_
  · intro r k
    show V c (Pipeline.arrRef spec2 0) (((cfg2.win 0).blk t).view.emb (ix3 (0 : Fin 1) r k)) = _
    refine congrArg _ (funext fun a => Fin.ext ?_)
    match a with
    | ⟨0, _⟩ => show win2_0.index t (0 : Fin 3) * 1 + 1 * 0 = win2_2.index t (0 : Fin 3); omega
    | ⟨1, _⟩ => show win2_0.index t (1 : Fin 3) * 1024 + 1 * r.val = win2_2.index t (1 : Fin 3) * 1024 + r.val; omega
    | ⟨2, _⟩ => show win2_0.index t (2 : Fin 3) * 128 + 1 * k.val = k.val; omega
  · intro s k
    show V c (Pipeline.arrRef spec2 1) (((cfg2.win 1).blk t).view.emb (ix3 (0 : Fin 1) s k)) = _
    refine congrArg _ (funext fun a => Fin.ext ?_)
    match a with
    | ⟨0, _⟩ => show win2_1.index t (0 : Fin 3) * 1 + 1 * 0 = win2_2.index t (0 : Fin 3); omega
    | ⟨1, _⟩ => show win2_1.index t (1 : Fin 3) * 1024 + 1 * s.val = win2_2.index t (2 : Fin 3) * 1024 + s.val; omega
    | ⟨2, _⟩ => show win2_1.index t (2 : Fin 3) * 128 + 1 * k.val = k.val; omega
  · show win2_2.index t (0 : Fin 3) * 1 + 1 * (j 0).val = win2_2.index t (0 : Fin 3); omega
  · show win2_2.index t (1 : Fin 3) * 1024 + 1 * (j 1).val = win2_2.index t (1 : Fin 3) * 1024 + (j 1).val; omega
  · show win2_2.index t (2 : Fin 3) * 1024 + 1 * (j 2).val = win2_2.index t (2 : Fin 3) * 1024 + (j 2).val; omega

/-- An index of the output array is in point t's block iff each coordinate is in the block's range on its axis. -/
theorem cross_mem_blk (t : Fin cfg2.N) (i : S8x2048x2048.Idx) :
    i ∈ ((cfg2.win 2).blk t).view.set ↔ ∀ a : Fin 3, win2_2.index t a * S1x1024x1024.size a ≤ (i a).val ∧ (i a).val < win2_2.index t a * S1x1024x1024.size a + S1x1024x1024.size a := by
  show i ∈ ((View.whole (Pipeline.arrRef spec2 2)).slice (win2_2.rect t)).set ↔ _
  rw [View.set_slice_whole, Rect.mem_set_unit]
  exact Iff.rfl

/-- Every index of the output array is in the block numbered by its batch and by its row and column over 1024. -/
theorem cross_cover (i : S8x2048x2048.Idx) :
    ∃ t : Fin cfg2.N, (cfg2.win 2).flush t = true ∧ i ∈ ((cfg2.win 2).blk t).view.set := by
  have hi0 : (i 0).val < 8 := (i 0).isLt
  have hi1 : (i 1).val < 2048 := (i 1).isLt
  have hi2 : (i 2).val < 2048 := (i 2).isLt
  obtain ⟨t, ht⟩ := cross_onto ⟨(i 0).val, hi0⟩ ⟨(i 1).val / 1024, by omega⟩ ⟨(i 2).val / 1024, by omega⟩
  have q0 : win2_2.index t (0 : Fin 3) = (i 0).val := congrFun ht 0
  have q1 : win2_2.index t (1 : Fin 3) = (i 1).val / 1024 := congrFun ht 1
  have q2 : win2_2.index t (2 : Fin 3) = (i 2).val / 1024 := congrFun ht 2
  refine ⟨t, flush2_2 t, ?_⟩
  rw [cross_mem_blk]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 1024 ≤ (i 1).val ∧ (i 1).val < win2_2.index t (1 : Fin 3) * 1024 + 1024; omega
  | ⟨2, _⟩ => show win2_2.index t (2 : Fin 3) * 1024 ≤ (i 2).val ∧ (i 2).val < win2_2.index t (2 : Fin 3) * 1024 + 1024; omega

/-- The launch's output array after its last point: the pairwise function of the two arrays as the launch found them. -/
theorem cross_final (c : Dev nD) :
    (dat2 V c).arrAt 2 cfg2.N = crossG (V c (Pipeline.arrRef spec2 0)) (V c (Pipeline.arrRef spec2 1)) :=
  (dat2 V c).arrAt_eq_of_cover 2 (crossG (V c (Pipeline.arrRef spec2 0)) (V c (Pipeline.arrRef spec2 1)))
    (fun t _ => cross_flushed V c t) (cross_cover)

end Cert.KernelIdeal.Hand

end
-- ==== Proof.QuadSpec.lean ====
/-
  The common value of the two programs, over the unpadded weights: with
      p_Z(b, r, k) = sum over d < 256 of Z(b, r, d) * A(d, k)        (k < 100)
  the result at (b, n, m) is the larger of zero and
      (sum_k p_Y(b,n,k)^2 + sum_k p_X(b,m,k)^2) - two * sum_k p_Y(b,n,k) * p_X(b,m,k),
  all sums over k < 100; "two" and "zero" are the values of the two float literals both programs print.
-/
import Idealize.ShloMosaic.PureOps.Ideal
import Idealize.ShloMosaic.Lib.ValueIdx

noncomputable section

namespace QuadSpec

open Idealize.ShloMosaic Idealize.ShloMosaic.ValueIdx

/-- Row r of batch b of Z against column k of the weights. -/
def refProj (Z : FVec Ideal ⟨3, ![8, 2048, 256]⟩ .f32) (A : FVec Ideal ⟨2, ![256, 100]⟩ .f32)
    (b : Fin 8) (r : Fin 2048) (k : Fin 100) : EReal :=
  ∑ d : Fin 256, Z (ix3 b r d) * A (ix2 d k)

/-- The result at batch b, row n of Y's projection against row m of X's. -/
def quadAt (X Y : FVec Ideal ⟨3, ![8, 2048, 256]⟩ .f32) (A : FVec Ideal ⟨2, ![256, 100]⟩ .f32)
    (b : Fin 8) (n m : Fin 2048) : EReal :=
  max (((∑ k : Fin 100, refProj Y A b n k * refProj Y A b n k) + ∑ k : Fin 100, refProj X A b m k * refProj X A b m k)
        - Ideal.ofBits .f32 0x40000000#32 * ∑ k : Fin 100, refProj Y A b n k * refProj X A b m k)
      (Ideal.ofBits .f32 0x00000000#32)

end QuadSpec

end
-- ==== Proof.LibZeroTail.lean ====
/-
  A finite sum whose terms vanish from some position on is the sum of the terms before that position: padding a
  family with zeros does not change its sum. Stated for any additive commutative monoid (so also on the extended
  reals, where no subtraction is available), over `Fin N` cut at `n ≤ N`.
-/
import Mathlib.Algebra.BigOperators.Fin

namespace ZeroTail

/-- If `f k = 0` for every `k` with `n ≤ k`, the sum of `f` over `Fin N` is the sum of its first `n` terms. -/
theorem sum_eq_sum_castLE {M : Type*} [AddCommMonoid M] {N : ℕ} (n : ℕ) (hn : n ≤ N) (f : Fin N → M)
    (hf : ∀ k : Fin N, n ≤ k.val → f k = 0) :
    ∑ k : Fin N, f k = ∑ k : Fin n, f (Fin.castLE hn k) := by
  obtain ⟨p, rfl⟩ := Nat.exists_eq_add_of_le hn
  have tail : ∑ i : Fin p, f (Fin.natAdd n i) = 0 :=
    Finset.sum_eq_zero fun i _ => hf _ (by rw [Fin.coe_natAdd]; exact Nat.le_add_right n i.val)
  rw [Fin.sum_univ_add, tail, add_zero]
  rfl

end ZeroTail
-- ==== Proof.PadSpec.lean ====
/-
  Padding the weights with zero columns changes nothing. The kernel program multiplies by the weights with 28
  columns of the padding value appended; that value is the integer zero converted to a float, the extended real 0.
  So a projection by the padded weights is the projection by the weights in columns below 100 and is a sum of
  products with 0, hence 0, in the columns from 100 on; and each of the three sums over the 128 padded columns the
  pairwise value is made of — the two sums of squares and the cross sum — has only zero terms from column 100 on, so it
  is the sum over the first 100 columns. Only x * 0 = 0 and s + 0 = s are used, which hold for every extended real:
  the inputs' finiteness is not needed.
-/
import proofs.«179172_j51118700757139_2_alg».proof.Proof.ProjSpec
import proofs.«179172_j51118700757139_2_alg».proof.Proof.CrossSpec
import proofs.«179172_j51118700757139_2_alg».proof.Proof.QuadSpec
import proofs.«179172_j51118700757139_2_alg».proof.Proof.LibZeroTail
import Idealize.ShloMosaic.Lib.KernelVsHost

noncomputable section

namespace Cert.KernelIdeal.Hand

open Cert.KernelIdeal Cert.KernelIdeal.Gen Idealize.ShloMosaic Idealize.ShloMosaic.ValueIdx QuadSpec

/-- The weights with 28 columns of the padding value appended. -/
def padW (A : FVec Ideal S256x100 .f32) : FVec Ideal S256x128 .f32 :=
  pad S256x128 ![0, 0] ![0, 28] ![0, 0] A (sitofp (F := Ideal) .f32 (constantI S_ 32 0#32)) pads_S256x100_S256x128_000_0280 h_S_

/-- The padding value: the integer zero as a float is 0. -/
theorem padval : (sitofp (F := Ideal) .f32 (constantI S_ 32 0#32)) (Shape.Idx.first h_S_) = 0 := by
  show (((0#32 : BitVec 32).toInt : ℝ) : EReal) = 0
  rw [show (0#32 : BitVec 32).toInt = 0 from by decide]
  simp

theorem padW_inside (A : FVec Ideal S256x100 .f32) (d : Fin 256) (k : Fin 128) (hk : k.val < 100) :
    padW A (ix2 d k) = A (ix2 d ⟨k.val, hk⟩) := by
  unfold padW
  refine pad_apply_of_inside _ _ _ A _ _ _ (ix2 d k) (ix2 d ⟨k.val, hk⟩) fun a => ?_
  match a with
  | ⟨0, _⟩ => show d.val = 0 + d.val * (0 + 1); omega
  | ⟨1, _⟩ => show k.val = 0 + k.val * (0 + 1); omega

theorem padW_outside (A : FVec Ideal S256x100 .f32) (d : Fin 256) (k : Fin 128) (hk : 100 ≤ k.val) :
    padW A (ix2 d k) = 0 := by
  unfold padW
  refine (pad_apply_of_not_inside _ _ _ A _ _ _ (ix2 d k) (1 : Fin 2) ?_).trans padval
  show ¬(0 ≤ k.val ∧ (k.val - 0) % (0 + 1) = 0 ∧ (k.val - 0) / (0 + 1) < 100)
  omega

/-- Below column 100 the projection by the padded weights is the projection by the weights. -/
theorem proj_pad_inside (Z : FVec Ideal S8x2048x256 .f32) (A : FVec Ideal S256x100 .f32) (b : Fin 8) (r : Fin 2048)
    (k : Fin 128) (hk : k.val < 100) : projAt Z (padW A) b r k = refProj Z A b r ⟨k.val, hk⟩ := by
  unfold projAt refProj
  exact Finset.sum_congr rfl fun d _ => by rw [padW_inside A d k hk]

/-- From column 100 on it is 0. -/
theorem proj_pad_outside (Z : FVec Ideal S8x2048x256 .f32) (A : FVec Ideal S256x100 .f32) (b : Fin 8) (r : Fin 2048)
    (k : Fin 128) (hk : 100 ≤ k.val) : projAt Z (padW A) b r k = 0 := by
  unfold projAt
  exact Finset.sum_eq_zero fun d _ => by rw [padW_outside A d k hk, mul_zero]

/-- A sum over the 128 padded columns of terms that vanish from column 100 on. -/
theorem sum_padded (f : Fin 128 → EReal) (g : Fin 100 → EReal)
    (hin : ∀ (k : Fin 128) (hk : k.val < 100), f k = g ⟨k.val, hk⟩) (hout : ∀ k : Fin 128, 100 ≤ k.val → f k = 0) :
    ∑ k : Fin 128, f k = ∑ k : Fin 100, g k := by
  rw [ZeroTail.sum_eq_sum_castLE 100 (by norm_num) f hout]
  exact Finset.sum_congr rfl fun k _ => hin _ k.isLt

/-- The pairwise value of the two projections by the padded weights is the common value over the unpadded ones. -/
theorem cross_padded (X Y : FVec Ideal S8x2048x256 .f32) (A : FVec Ideal S256x100 .f32) (b : Fin 8) (n m : Fin 2048) :
    crossAt (projG Y (padW A)) (projG X (padW A)) b n m = quadAt X Y A b n m := by
  unfold crossAt quadAt
  refine congrArg₂ max (congrArg₂ (· - ·) (congrArg₂ (· + ·) ?_ ?_) (congrArg₂ (· * ·) rfl ?_)) rfl
  · refine sum_padded _ (fun k => refProj Y A b n k * refProj Y A b n k) (fun k hk => ?_) (fun k hk => ?_)
    · rw [projG_ix3, proj_pad_inside Y A b n k hk]
    · rw [projG_ix3, proj_pad_outside Y A b n k hk, mul_zero]
  · refine sum_padded _ (fun k => refProj X A b m k * refProj X A b m k) (fun k hk => ?_) (fun k hk => ?_)
    · rw [projG_ix3, proj_pad_inside X A b m k hk]
    · rw [projG_ix3, proj_pad_outside X A b m k hk, mul_zero]
  · refine sum_padded _ (fun k => refProj Y A b n k * refProj X A b m k) (fun k hk => ?_) (fun k hk => ?_)
    · rw [projG_ix3, projG_ix3, proj_pad_inside Y A b n k hk, proj_pad_inside X A b m k hk]
    · rw [projG_ix3, proj_pad_outside Y A b n k hk, zero_mul]

/-- So the kernel program's result array is the common value at every index. -/
theorem crossG_padded (X Y : FVec Ideal S8x2048x256 .f32) (A : FVec Ideal S256x100 .f32) (b : Fin 8) (n m : Fin 2048) :
    crossG (projG Y (padW A)) (projG X (padW A)) (ix3 b n m) = quadAt X Y A b n m :=
  (crossG_ix3 _ _ b n m).trans (cross_padded X Y A b n m)

end Cert.KernelIdeal.Hand

end
-- ==== Proof.Fold.lean ====
/-
  The result buffer at the end of the kernel program, walked back through its five segments to the launch memory:
  it holds the pairwise function of the two projected arrays; the first projected array is the projection of the
  second argument and the second that of the first argument, both by the padded weights; and the padded weights are
  the third argument with 28 columns of the padding value (the integer zero converted to a float) on the right.
  No launch writes an array that a later launch reads except through these outputs, so every input a launch finds is
  either an argument as launched, the padded weights, or an earlier launch's output.
-/
import proofs.«179172_j51118700757139_2_alg».proof.Proof.KernelRun
import proofs.«179172_j51118700757139_2_alg».proof.Proof.ProjValue0
import proofs.«179172_j51118700757139_2_alg».proof.Proof.ProjValue1
import proofs.«179172_j51118700757139_2_alg».proof.Proof.CrossValue
import proofs.«179172_j51118700757139_2_alg».proof.Proof.PadSpec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The weights' buffer when the first launch is entered: the host stretch has padded the third argument. -/
theorem entry_weights (c : Dev nD) :
    V2 m ρ c main_v0 = padW (m ((c : Thread nD τ).loc main_arg2)) := by
  show StableHlo.after hostOps0_1 (StableHlo.after hostOps0 (W0 m ρ c)) (Proc.devRef .tc main_v0) = _
  after_results
  rfl

/-- The first two arguments when the first launch is entered: as launched. -/
theorem entry_arg0 (c : Dev nD) : V2 m ρ c main_arg0 = m ((c : Thread nD τ).loc main_arg0) := by
  show StableHlo.after hostOps0_1 (StableHlo.after hostOps0 (W0 m ρ c)) (Proc.devRef .tc main_arg0) = _
  after_results
theorem entry_arg1 (c : Dev nD) : V2 m ρ c main_arg1 = m ((c : Thread nD τ).loc main_arg1) := by
  show StableHlo.after hostOps0_1 (StableHlo.after hostOps0 (W0 m ρ c)) (Proc.devRef .tc main_arg1) = _
  after_results

/-! ## The first projection launch: the first argument by the padded weights -/

theorem entry0_data (c : Dev nD) : V2 m ρ c (Pipeline.arrRef spec0 0) = m ((c : Thread nD τ).loc main_arg0) :=
  entry_arg0 m ρ c
theorem entry0_weights (c : Dev nD) : V2 m ρ c (Pipeline.arrRef spec0 1) = padW (m ((c : Thread nD τ).loc main_arg2)) :=
  entry_weights m ρ c

/-- After the first launch its output array holds the first argument's projection. -/
theorem out0 (c : Dev nD) :
    W3 m ρ c (Proc.devRef .tc main_v1)
      = projG (m ((c : Thread nD τ).loc main_arg0)) (padW (m ((c : Thread nD τ).loc main_arg2))) := by
  refine (W3_arr m ρ c 2).trans ?_
  rw [proj_final0 (V2 m ρ) c, entry0_data, entry0_weights]

/-! ## The second projection launch: the second argument by the same weights -/

/-- The first launch writes neither the second argument nor the weights. -/
theorem entry1_data (c : Dev nD) : V3 m ρ c (Pipeline.arrRef spec1 0) = m ((c : Thread nD τ).loc main_arg1) :=
  (W3_of_ne m ρ c main_arg1 (by decide)).trans (entry_arg1 m ρ c)
theorem entry1_weights (c : Dev nD) : V3 m ρ c (Pipeline.arrRef spec1 1) = padW (m ((c : Thread nD τ).loc main_arg2)) :=
  ((W3_arr m ρ c 1).trans (((dat0 (V2 m ρ) c).arrAt_in 1 rfl _).trans (A_eq0 (V2 m ρ) c 1))).trans (entry_weights m ρ c)

/-- After the second launch its output array holds the second argument's projection. -/
theorem out1 (c : Dev nD) :
    W4 m ρ c (Proc.devRef .tc main_v2)
      = projG (m ((c : Thread nD τ).loc main_arg1)) (padW (m ((c : Thread nD τ).loc main_arg2))) := by
  refine (W4_arr m ρ c 2).trans ?_
  rw [proj_final1 (V3 m ρ) c, entry1_data, entry1_weights]

/-! ## The pairwise launch -/

theorem entry2_first (c : Dev nD) :
    V4 m ρ c (Pipeline.arrRef spec2 0)
      = projG (m ((c : Thread nD τ).loc main_arg1)) (padW (m ((c : Thread nD τ).loc main_arg2))) :=
  out1 m ρ c
/-- The second launch does not write the first launch's output. -/
theorem entry2_second (c : Dev nD) :
    V4 m ρ c (Pipeline.arrRef spec2 1)
      = projG (m ((c : Thread nD τ).loc main_arg0)) (padW (m ((c : Thread nD τ).loc main_arg2))) :=
  (W4_of_ne m ρ c main_v1 (by decide)).trans (out0 m ρ c)

/-- The result buffer at the end: the pairwise function of the two projections. -/
theorem result_eq (c : Dev nD) :
    W5 m ρ c (Proc.devRef .tc main_v3)
      = crossG (projG (m ((c : Thread nD τ).loc main_arg1)) (padW (m ((c : Thread nD τ).loc main_arg2))))
          (projG (m ((c : Thread nD τ).loc main_arg0)) (padW (m ((c : Thread nD τ).loc main_arg2)))) := by
  refine (W5_arr m ρ c 2).trans ?_
  rw [cross_final (V4 m ρ) c, entry2_first, entry2_second]

/-- The kernel program's run at the extended reals, with its result as one function of the arguments. -/
theorem run_value : θ_run defs (onTc (τ := τ) (main (F := Ideal))) ⟨m, fun _ => 0, ρ⟩ (fun r => ∀ c : Dev nD,
      r.2.mem ((c.tc : Thread nD τ).loc main_v3)
        = crossG (projG (m ((c : Thread nD τ).loc main_arg1)) (padW (m ((c : Thread nD τ).loc main_arg2))))
            (projG (m ((c : Thread nD τ).loc main_arg0)) (padW (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_result m ρ)

end Cert.KernelIdeal.Hand

end
-- ==== Proof.RefSide.lean ====
/-
  The reference program's result, read at one index: the common value `QuadSpec.quadAt`. The reference projects both
  data arrays by the unpadded weights (two `dot_general`s), sums the squares of each projection over its 100 columns
  (two host sums from zero), multiplies the two projections row against row within a batch (a batched `dot_general`),
  spreads the two sums over the square, subtracts twice the product and takes the larger of that and zero.
-/
import proofs.«179172_j51118700757139_2_alg».proof.Proof.Gen.ReferenceIdeal.Read
import proofs.«179172_j51118700757139_2_alg».proof.Proof.QuadSpec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx QuadSpec

/-- The first argument's projection at (b, r, k). -/
theorem v0_apply (X : FVec Ideal S8x2048x256 .f32) (A : FVec Ideal S256x100 .f32) (b : Fin 8) (r : Fin 2048) (k : Fin 100) :
    val_main_v0 (F := Ideal) X A (ix3 b r k) = refProj X A b r k := by
  rw [val_main_v0_apply]
  unfold refProj
  refine Finset.sum_congr rfl fun d _ => ?_
  refine congrArg₂ (· * ·) (congrArg X ?_) (congrArg A ?_)
  · exact funext fun a => Fin.ext (by
      match a with
      | ⟨0, _⟩ => rfl
      | ⟨1, _⟩ => rfl
      | ⟨2, _⟩ => rfl)
  · exact funext fun a => Fin.ext (by
      match a with
      | ⟨0, _⟩ => rfl
      | ⟨1, _⟩ => rfl)

/-- The second argument's projection at (b, r, k). -/
theorem v1_apply (Y : FVec Ideal S8x2048x256 .f32) (A : FVec Ideal S256x100 .f32) (b : Fin 8) (r : Fin 2048) (k : Fin 100) :
    val_main_v1 (F := Ideal) Y A (ix3 b r k) = refProj Y A b r k := by
  rw [val_main_v1_apply]
  unfold refProj
  refine Finset.sum_congr rfl fun d _ => ?_
  refine congrArg₂ (· * ·) (congrArg Y ?_) (congrArg A ?_)
  · exact funext fun a => Fin.ext (by
      match a with
      | ⟨0, _⟩ => rfl
      | ⟨1, _⟩ => rfl
      | ⟨2, _⟩ => rfl)
  · exact funext fun a => Fin.ext (by
      match a with
      | ⟨0, _⟩ => rfl
      | ⟨1, _⟩ => rfl)

/-- The sum of squares of the first argument's projection along row (b, r). -/
theorem v3_apply (X : FVec Ideal S8x2048x256 .f32) (A : FVec Ideal S256x100 .f32) (b : Fin 8) (r : Fin 2048) :
    val_main_v3 (F := Ideal) X A (ix2 b r) = ∑ k : Fin 100, refProj X A b r k * refProj X A b r k := by
  rw [val_main_v3_apply]
  have hz : (val_main_cst (F := Ideal)) (Shape.Idx.first h_S_) = 0 := Ideal.ofBits_zero_f32
  rw [hz, zero_add]
  refine Finset.sum_congr rfl fun k _ => ?_
  have e : idx_main_v3 (ix2 b r) k = ix3 b r k := funext fun a => Fin.ext (by
    match a with
    | ⟨0, _⟩ => rfl
    | ⟨1, _⟩ => rfl
    | ⟨2, _⟩ => rfl)
  rw [e, val_main_v2_apply, v0_apply]
  rfl

/-- The sum of squares of the second argument's projection along row (b, r). -/
theorem v5_apply (Y : FVec Ideal S8x2048x256 .f32) (A : FVec Ideal S256x100 .f32) (b : Fin 8) (r : Fin 2048) :
    val_main_v5 (F := Ideal) Y A (ix2 b r) = ∑ k : Fin 100, refProj Y A b r k * refProj Y A b r k := by
  rw [val_main_v5_apply]
  have hz : (val_main_cst_0 (F := Ideal)) (Shape.Idx.first h_S_) = 0 := Ideal.ofBits_zero_f32
  rw [hz, zero_add]
  refine Finset.sum_congr rfl fun k _ => ?_
  have e : idx_main_v5 (ix2 b r) k = ix3 b r k := funext fun a => Fin.ext (by
    match a with
    | ⟨0, _⟩ => rfl
    | ⟨1, _⟩ => rfl
    | ⟨2, _⟩ => rfl)
  rw [e, val_main_v4_apply, v1_apply]
  rfl

/-- The product of the two projections, row n of the second's against row m of the first's, in batch b. -/
theorem v6_apply (X Y : FVec Ideal S8x2048x256 .f32) (A : FVec Ideal S256x100 .f32) (b : Fin 8) (n m : Fin 2048) :
    val_main_v6 (F := Ideal) X Y A (ix3 b n m) = ∑ k : Fin 100, refProj Y A b n k * refProj X A b m k := by
  rw [val_main_v6_apply]
  refine Finset.sum_congr rfl fun k _ => ?_
  have el : lidx_main_v6 (ix3 b n m) k = ix3 b n k := funext fun a => Fin.ext (by
    match a with
    | ⟨0, _⟩ => rfl
    | ⟨1, _⟩ => rfl
    | ⟨2, _⟩ => rfl)
  have er : ridx_main_v6 (ix3 b n m) k = ix3 b m k := funext fun a => Fin.ext (by
    match a with
    | ⟨0, _⟩ => rfl
    | ⟨1, _⟩ => rfl
    | ⟨2, _⟩ => rfl)
  rw [el, er, v1_apply, v0_apply]

/-- The reference's result at (b, n, m) is the common value. -/
theorem result_apply (X Y : FVec Ideal S8x2048x256 .f32) (A : FVec Ideal S256x100 .f32) (b : Fin 8) (n m : Fin 2048) :
    val_main_v15 (F := Ideal) X Y A (ix3 b n m) = quadAt X Y A b n m := by
  have e9 : idx_main_v7 (idx_main_v9 (ix3 b n m)) = ix2 b n := funext fun a => Fin.ext (by
    match a with
    | ⟨0, _⟩ => rfl
    | ⟨1, _⟩ => rfl)
  have e10 : idx_main_v8 (idx_main_v10 (ix3 b n m)) = ix2 b m := funext fun a => Fin.ext (by
    match a with
    | ⟨0, _⟩ => rfl
    | ⟨1, _⟩ => rfl)
  rw [val_main_v15_apply, val_main_v14_apply, val_main_v11_apply, val_main_v13_apply, val_main_v9_apply, val_main_v7_apply,
    val_main_v10_apply, val_main_v8_apply, val_main_v12_apply, val_main_cst_1_apply, val_main_call0_v0_apply,
    val_main_call0_cst_apply, e9, e10, v5_apply, v3_apply, v6_apply]
  rfl

end Cert.ReferenceIdeal.RefValue

end
-- ==== Proof.lean ====
/-
  Pairwise squared distances of two projected point sets, against their jnp reference, on the extended reals.

  Inputs X, Y : [8, 2048, 256] and weights A : [256, 100]. With p_Z(b, r, k) = sum over d of Z(b, r, d) * A(d, k), both
  programs compute, at (b, n, m),
      max( (sum_k p_Y(b,n,k)^2 + sum_k p_X(b,m,k)^2) - 2 * sum_k p_Y(b,n,k) * p_X(b,m,k), 0 ),    k < 100.

  The reference does so literally: two `dot_general`s, two host sums, a batched `dot_general`, broadcasts, a subtraction
  and a `maximum` with zero. The kernel program pads A on the right with 28 zero columns, runs the projection kernel once
  on X and once on Y (one grid point per batch, a matrix product into a zero accumulator; its roundings to sixteen bits
  are the identity here), and then the pairwise kernel on an 8 x 2 x 2 grid of [1024, 1024] output blocks, whose body
  takes the two row sums of squares as lane reductions, the cross term as a matrix product contracting the column axis
  of both blocks, and the same subtraction and maximum — all over 128 columns. The only law joining the two sides is
  that the 28 padded columns contribute nothing: every product with the padding value 0 is 0 and adding 0 changes no
  sum, on every extended real, so the precondition (finite inputs) is never opened.

  The modules: what each kernel body stores at an index (Payloads, PayCross); each launch's output array as one
  function of the arrays it finds (ProjSpec, ProjValue0, ProjValue1, CrossSpec, CrossValue); the program's run with its
  result named and walked back through its segments to the arguments (KernelRun, Fold); the padded sums (LibZeroTail,
  PadSpec); the reference's result at an index (RefSide); the common value (QuadSpec). The ideal pass rewrote nothing,
  so the idealization claim is trivial; the three frames are the generated ones.
-/
import proofs.«179172_j51118700757139_2_alg».proof.Defs
import proofs.«179172_j51118700757139_2_alg».proof.Proof.Gen.Kernel
import proofs.«179172_j51118700757139_2_alg».proof.Proof.Gen.Kernel.Frame
import proofs.«179172_j51118700757139_2_alg».proof.Proof.Gen.KernelIdeal
import proofs.«179172_j51118700757139_2_alg».proof.Proof.Gen.KernelIdeal.Frame
import proofs.«179172_j51118700757139_2_alg».proof.Proof.Gen.ReferenceIdeal
import proofs.«179172_j51118700757139_2_alg».proof.Proof.Gen.ReferenceIdeal.Run
import proofs.«179172_j51118700757139_2_alg».proof.Proof.Gen.ReferenceIdeal.Read
import proofs.«179172_j51118700757139_2_alg».proof.Proof.Gen.Pre_finite_inputs
import proofs.«179172_j51118700757139_2_alg».proof.Proof.Fold
import proofs.«179172_j51118700757139_2_alg».proof.Proof.PadSpec
import proofs.«179172_j51118700757139_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal.Hand

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The reference's result array and the kernel program's are one function of the arguments: index by index both are
    the common value, the reference's directly and the kernel's after the padded columns are dropped. -/
theorem result_same (X Y : FVec Ideal Cert.KernelIdeal.S8x2048x256 .f32) (A : FVec Ideal Cert.KernelIdeal.S256x100 .f32) :
    Cert.ReferenceIdeal.Read.val_main_v15 (F := Ideal) X Y A = crossG (projG Y (padW A)) (projG X (padW A)) := by
  funext i
  obtain ⟨b, n, m, rfl⟩ : ∃ (b : Fin 8) (n m : Fin 2048), i = ix3 b n m := ⟨i 0, i 1, i 2, eq_ix3 i⟩
  rw [Cert.ReferenceIdeal.RefValue.result_apply, Cert.KernelIdeal.Hand.crossG_padded]

/-- From memories agreeing on the arguments both programs run, and end with equal results. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq]
  exact result_same _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
